-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2x4096 : Shape := ⟨3, ![4096, 2, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2x4096 : S_.BroadcastsInDim S4096x2x4096 (![] : Fin 0 → Fin S4096x2x4096.rank)
  reducesTo_S4096x2x4096_S_d0_1_2 : S4096x2x4096.ReducesTo [0, 1, 2] S_

variable [Facts]

def fn {F : FTy → Type} [FloatOps F] (main_arg0 : FVec F S4096x4096 .f32) (main_arg1 : FVec F S4096x4096 .f32) (main_arg2 : FVec F S4096x2x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x2x4096 .f32 := Host.absf main_arg2
  let main_cst_2 : FVec F S_ .f32 := constant S_ .f32 0x7F800000#32
  let main_v10 : FVec F S4096x2x4096 .f32 := broadcastInDim S4096x2x4096 ![] bcast_S_S4096x2x4096 main_cst_2
  let main_v11 : IVec S4096x2x4096 1 := cmpf .olt main_v9 main_v10
  let main_c_3 : IVec S_ 1 := constantI S_ 1 1#1
  let main_v12 : IVec S_ 1 := (fun x v => Host.reduce IntOp.andi x v reducesTo_S4096x2x4096_S_d0_1_2 h_S_) main_v11 main_c_3
  let main_v13 : IVec S_ 1 := andi main_v8 main_v12
  main_v13
-- ==== Kernel.lean ====
abbrev S4096x4096 : Shape := ⟨2, ![4096, 4096]⟩
abbrev S4096x2x4096 : Shape := ⟨3, ![4096, 2, 4096]⟩
abbrev S4096x8192 : Shape := ⟨2, ![4096, 8192]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2x4096, .f32⟩
  | .hbm, ⟨3, _⟩ => ⟨S4096x8192, .f32⟩
  | .hbm, ⟨4, _⟩ => ⟨S4096x4096, .f32⟩
  | .hbm, ⟨5, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4096x2x4096_S4096x8192 : S4096x2x4096.ShapeCasts S4096x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x8192.size a
  hwx0_2 : ∀ i : grid0.Coords, EltTy.bits .f32 = 32 ∨ (Rect.block (s := S4096x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x8192.size a
  hwx0_3 : ∀ i : grid0.Coords, EltTy.bits .f32 = 32 ∨ (Rect.block (s := S4096x8192) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2x4096 : Shape := ⟨3, ![4096, 2, 4096]⟩
abbrev S4096x1x4096 : Shape := ⟨3, ![4096, 1, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x2x4096, .f32⟩
  | .hbm, ⟨3, _⟩ => ⟨S4096x1x4096, .f32⟩
  | .hbm, ⟨4, _⟩ => ⟨S4096x4096, .f32⟩
  | .hbm, ⟨5, _⟩ => ⟨S4096x1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  slices_S4096x2x4096_S4096x1x4096_0_0_0 : S4096x2x4096.Slices ![0, 0, 0] S4096x1x4096
  shapeCasts_S4096x1x4096_S4096x4096 : S4096x1x4096.ShapeCasts S4096x4096
  slices_S4096x2x4096_S4096x1x4096_0_1_0 : S4096x2x4096.Slices ![0, 1, 0] S4096x1x4096
  bcast_S_S4096x4096 : S_.BroadcastsInDim S4096x4096 (![] : Fin 0 → Fin S4096x4096.rank)

variable [Facts₀]

class Facts : Prop extends Facts₀ where

variable [Facts]
-- ==== Proof.LibSharedFrame.lean ====
/-
  The frame run of a one-region pipeline kernel whose windows may SHARE AN ARRAY.

  A kernel may be handed one array through several input windows (here: the two halves of a row-merged array read
  at two column offsets). The region then holds that array once, and the proof data say at which share each of its
  windows holds it. This file states the launch for such a kernel in the form the frame run of distinct arrays has:
  given the body obligation at every grid point, the program's shape up to the region (the buffers' contents `V`
  there), and the one entailment that deals the buffers behind the arrays among the windows (`hsplit`), every weakly
  fair execution terminates, each window's array ends at what the write-backs leave (`Dat.arrAt … N`; an input's
  array at its entry contents), and every other unscoped buffer ends as the region found it.

  The kernel has no semaphore of its own, carries nothing between grid points outside its staging buffers and does
  not use the generator register: its invariant is the scoped buffers that are no staging buffer, at some contents.
-/
import Idealize.ShloMosaic.Lib.Pipeline.Frame

noncomputable section

namespace Idealize.ShloMosaic.SharedFrame

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run for windows that may share arrays. `hinj`, `hw`, `hne`, `harr`, `hstage` are the layout facts
    (the staging cells distinct, the arrays unscoped, the staging buffers scoped and distinct, no block empty, arrays
    and staging memrefs whole buffers); `hbody` the body obligation; `hmain` the program up to the region with the
    buffers' contents there; `hsplit` how the buffers behind the arrays, each whole at the full share, make the
    proof data's arrays at entry; `hΦ` says the invariant is the scoped rest. -/
theorem θ_run_frame_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr [HU]
      · iempintro
      · iexact HU)
    (hin := fun c => by
      rw [hΦ]
      iintro ⟨-, HR⟩
      iexact HR)
    (hout := fun c => by
      rw [hΦ]
      iintro HR
      isplitr [HR]
      · iempintro
      · iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.SharedFrame

end
-- ==== Proof.KernelFrame.lean ====
/-
  The frame of the gate-rotation kernel's program: it runs to the end, faults nowhere and leaves its three argument
  arrays unchanged — together with what its two result arrays then hold.

  The program reshapes the gate [4096, 2, 4096] to [4096, 8192] and launches one pipelined region over a 4 × 8 grid of
  1024 × 512 blocks. Six windows: z_re, z_im, the reshaped gate TWICE (block column j for the first component, block
  column 8 + j for the second), and the two results. The two gate windows are on ONE array, so the region holds that
  array once and deals it to the two windows half and half; both only read it.

  At a grid point the body loads the four input blocks, computes, and stores each result block whole (it also loads
  each result buffer once and discards the value). So after the body each input buffer holds its block still and
  each result buffer the body's value of the four input blocks (`outRe`, `outIm` below, over the payloads
  `k0_pay6`, `k0_pay7`). Nothing is carried between grid points.
-/
import proofs.«168136_j18167711662682_2_alg».proof.Proof.Gen.Kernel.Launch
import proofs.«168136_j18167711662682_2_alg».proof.Proof.Gen.Kernel.Skeleton
import proofs.«168136_j18167711662682_2_alg».proof.Proof.Gen.Kernel.Points
import proofs.«168136_j18167711662682_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch contents after the one reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data on the region's arrays
    whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## What the body leaves in the two result buffers -/

/-- The whole 1024 × 512 buffer as one rectangle. -/
abbrev r0_0 : Rect S1024x512 := Rect.unit (s := S1024x512) ![0, 0] S1024x512.size inb_S1024x512_S1024x512_0_0

/-- The first result's buffer after the body, from the four input blocks: its one store. -/
def outRe (x0 x1 x2 x3 : Vec F S1024x512 .f32) : Vec F S1024x512 .f32 :=
  View.canon [⟨r0_0, k0_pay6 (View.ld x0 r0_0) (View.ld x1 r0_0) (View.ld x2 r0_0) (View.ld x3 r0_0)⟩]

/-- The second result's buffer after the body, from the four input blocks: its one store. -/
def outIm (x0 x1 x2 x3 : Vec F S1024x512 .f32) : Vec F S1024x512 .f32 :=
  View.canon [⟨r0_0, k0_pay7 (View.ld x0 r0_0) (View.ld x1 r0_0) (View.ld x2 r0_0) (View.ld x3 r0_0)⟩]

/-- The one store covers the buffer. -/
theorem cover_whole (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-! ## The body's triple -/

set_option maxHeartbeats 1000000 in
/-- The body on six whole staging memrefs — the inputs' at contents `x0 … x3`, the results' at anything — runs to the
    continuation holding the inputs' as they were and the results' at `outRe`, `outIm` of the inputs'. -/
theorem sound_kernel (c : Dev nD) (E : Set ℕ) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (x0 x1 x2 x3 : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outRe x0 x1 x2 x3) ∗ owns (c : Thread nD τ) arg7 fullShare (outIm x0 x1 x2 x3)) -∗ K ⟨⟩))
      ⊢ wp frame (wpE (defs₀ (F := F)) Variants.none c none) E (cc0__complex_gate_kernel i arg2 harg2 arg3 harg3 arg4 harg4 arg5 harg5 arg6 harg6 arg7 harg7) K := by
  simp only [cc0__complex_gate_kernel_eq_skeleton]; unfold cc0__complex_gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  · iexists _; isplitr
    swap; · iexact H5
    ipureintro
    exact View.read_writes_eq_canon _ _ _ (cover_whole _)

/-! ## The proof data -/

/-- The region's proof data on core `c`: the arrays as the region finds them; after the body at point `t` each input's
    buffer at its block and each result's at the body's value of the four input blocks; the invariant the scoped
    buffers that are no staging buffer; nothing owed. The two gate windows hold their one array half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRe (iblk m c 0 t) (iblk m c 1 t) (iblk m c 2 t) (iblk m c 3 t)
    | ⟨5, _⟩ => outIm (iblk m c 0 t) (iblk m c 1 t) (iblk m c 2 t) (iblk m c 3 t)
  Φ _ := Pipeline.scopedRest spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outRe (iblk m c 0 t) (iblk m c 1 t) (iblk m c 2 t) (iblk m c 3 t) := by dsimp only [dats]
theorem after0_5 (c : Dev nD) (t : Fin cfg0.N) :
    (dats m 0 c).after 5 t = outIm (iblk m c 0 t) (iblk m c 1 t) (iblk m c 2 t) (iblk m c 3 t) := by dsimp only [dats]

/-- Each input's staging buffer holds its block at every point, fetched there or not. -/
theorem before0_0 (c : Dev nD) (t : Fin cfg0.N) (d) : (dats m 0 c).before 0 t d = iblk m c 0 t :=
  (before_in_of m (dats m 0 c) 0 rfl (fun _ => rfl) (fun _ _ _ => rfl) (A_eq m c 0) (fun t => by rw [after0_0]) t d).trans
    (by unfold Dat.fetched Dat.blockOf iblk; rw [A_eq]; rfl)
theorem before0_1 (c : Dev nD) (t : Fin cfg0.N) (d) : (dats m 0 c).before 1 t d = iblk m c 1 t :=
  (before_in_of m (dats m 0 c) 1 rfl (fun _ => rfl) (fun _ _ _ => rfl) (A_eq m c 1) (fun t => by rw [after0_1]) t d).trans
    (by unfold Dat.fetched Dat.blockOf iblk; rw [A_eq]; rfl)
theorem before0_2 (c : Dev nD) (t : Fin cfg0.N) (d) : (dats m 0 c).before 2 t d = iblk m c 2 t :=
  (before_in_of m (dats m 0 c) 2 rfl (fun _ => rfl) (fun _ _ _ => rfl) (A_eq m c 2) (fun t => by rw [after0_2]) t d).trans
    (by unfold Dat.fetched Dat.blockOf iblk; rw [A_eq]; rfl)
theorem before0_3 (c : Dev nD) (t : Fin cfg0.N) (d) : (dats m 0 c).before 3 t d = iblk m c 3 t :=
  (before_in_of m (dats m 0 c) 3 rfl (fun _ => rfl) (fun _ _ _ => rfl) (A_eq m c 3) (fun t => by rw [after0_3]) t d).trans
    (by unfold Dat.fetched Dat.blockOf iblk; rw [A_eq]; rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt among the windows -/

/-- The buffers behind the windows' arrays are the five arrays z_re, z_im, the reshaped gate and the two results. -/
theorem arrRefs_eq : Finset.univ.image (Pipeline.arrRef spec0) = ([main_arg0, main_arg1, main_v0, main_v1_0, main_v1_1] : List (Ref sig .tc)).toFinset := by
  decide

/-- The five buffers one by one. -/
theorem arrBufs_eq (c : Dev nD) : (Pipeline.arrBufs spec0 c (V m c) : sProp 𝕄)
    = iprop((((c : Thread nD τ).loc main_arg0) ↦{fullShare} V m c main_arg0) ∗ (((c : Thread nD τ).loc main_arg1) ↦{fullShare} V m c main_arg1)
        ∗ (((c : Thread nD τ).loc main_v0) ↦{fullShare} V m c main_v0) ∗ (((c : Thread nD τ).loc main_v1_0) ↦{fullShare} V m c main_v1_0)
        ∗ (((c : Thread nD τ).loc main_v1_1) ↦{fullShare} V m c main_v1_1)) :=
  bigSep_eq_bigSepL_of_eq [main_arg0, main_arg1, main_v0, main_v1_0, main_v1_1] arrRefs_eq (by decide) _

/-- The five buffers, each whole at the full share at the entry contents, make the six windows' arrays at entry: the
    reshaped gate is split into its two halves, one for each of the two windows that read it. -/
theorem hsplit (c : Dev nD) :
    (Pipeline.arrBufs spec0 c (V m c) : sProp 𝕄) ⊢ (dats m 0 c).arrays ((dats m 0 c).arrAt · 0) := by
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e4 : (cfg0.win 4).arr.view.set = Finset.univ := (arr_whole0 4).set_eq_univ
  have e5 : (cfg0.win 5).arr.view.set = Finset.univ := (arr_whole0 5).set_eq_univ
  have s0 : (dats m 0 c).share 0 = fullShare := rfl
  have s1 : (dats m 0 c).share 1 = fullShare := rfl
  have s2 : (dats m 0 c).share 2 = fullShare.left := rfl
  have s3 : (dats m 0 c).share 3 = fullShare.right := rfl
  have s4 : (dats m 0 c).share 4 = fullShare := rfl
  have s5 : (dats m 0 c).share 5 = fullShare := rfl
  rw [arrBufs_eq]
  unfold Dat.arrays
  rw [bigSep_W0]
  rw [e0, e1, e2, e4, e5, s0, s1, s2, s3, s4, s5]
  iintro ⟨H0, H1, H2, H4, H5⟩
  ihave H2' := (pointsTo_share (PosShare.mem_left_op_right fullShare)).1 $$ H2
  icases H2' with ⟨H2, H3⟩
  isplitl [H0]; · iexact H0
  isplitl [H1]; · iexact H1
  isplitl [H2]; · iexact H2
  isplitl [H3]; · iexact H3
  isplitl [H4]; · iexact H4
  iexact H5

/-! ## The run and the frame -/

set_option backward.isDefEq.respectTransparency.types false in
/-- Every weakly fair execution of the program terminates; every window's array then holds what the write-backs
    leave (an input's array its entry contents) and every other unscoped buffer what the region found. -/
theorem run_main : θ_run defs (onTc (τ := τ) (main (F := F))) (s₀ m ρ) (Pipeline.FramePost cfgs (dats m) 0 (V m)) :=
  SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.Kernel.Hand

end
-- ==== Proof.KernelIdealFrame.lean ====
/-
  The frame of the gate-rotation kernel's program: it runs to the end, faults nowhere and leaves its three argument
  arrays unchanged — together with what its two result arrays then hold.

  The program reshapes the gate [4096, 2, 4096] to [4096, 8192] and launches one pipelined region over a 4 × 8 grid of
  1024 × 512 blocks. Six windows: z_re, z_im, the reshaped gate TWICE (block column j for the first component, block
  column 8 + j for the second), and the two results. The two gate windows are on ONE array, so the region holds that
  array once and deals it to the two windows half and half; both only read it.

  At a grid point the body loads the four input blocks, computes, and stores each result block whole (it also loads
  each result buffer once and discards the value). So after the body each input buffer holds its block still and
  each result buffer the body's value of the four input blocks (`outRe`, `outIm` below, over the payloads
  `k0_pay6`, `k0_pay7`). Nothing is carried between grid points.
-/
import proofs.«168136_j18167711662682_2_alg».proof.Proof.Gen.KernelIdeal.Launch
import proofs.«168136_j18167711662682_2_alg».proof.Proof.Gen.KernelIdeal.Skeleton
import proofs.«168136_j18167711662682_2_alg».proof.Proof.Gen.KernelIdeal.Points
import proofs.«168136_j18167711662682_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch contents after the one reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data on the region's arrays
    whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## What the body leaves in the two result buffers -/

/-- The whole 1024 × 512 buffer as one rectangle. -/
abbrev r0_0 : Rect S1024x512 := Rect.unit (s := S1024x512) ![0, 0] S1024x512.size inb_S1024x512_S1024x512_0_0

/-- The first result's buffer after the body, from the four input blocks: its one store. -/
def outRe (x0 x1 x2 x3 : Vec F S1024x512 .f32) : Vec F S1024x512 .f32 :=
  View.canon [⟨r0_0, k0_pay6 (View.ld x0 r0_0) (View.ld x1 r0_0) (View.ld x2 r0_0) (View.ld x3 r0_0)⟩]

/-- The second result's buffer after the body, from the four input blocks: its one store. -/
def outIm (x0 x1 x2 x3 : Vec F S1024x512 .f32) : Vec F S1024x512 .f32 :=
  View.canon [⟨r0_0, k0_pay7 (View.ld x0 r0_0) (View.ld x1 r0_0) (View.ld x2 r0_0) (View.ld x3 r0_0)⟩]

/-- The one store covers the buffer. -/
theorem cover_whole (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-! ## The body's triple -/

set_option maxHeartbeats 1000000 in
/-- The body on six whole staging memrefs — the inputs' at contents `x0 … x3`, the results' at anything — runs to the
    continuation holding the inputs' as they were and the results' at `outRe`, `outIm` of the inputs'. -/
theorem sound_kernel (c : Dev nD) (E : Set ℕ) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1024x512 .f32) (harg6 : arg6.IsWhole) (arg7 : Memref sig .tc .vmem S1024x512 .f32) (harg7 : arg7.IsWhole)
    (x0 x1 x2 x3 : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outRe x0 x1 x2 x3) ∗ owns (c : Thread nD τ) arg7 fullShare (outIm x0 x1 x2 x3)) -∗ K ⟨⟩))
      ⊢ wp frame (wpE (defs₀ (F := F)) Variants.none c none) E (cc0__complex_gate_kernel i arg2 harg2 arg3 harg3 arg4 harg4 arg5 harg5 arg6 harg6 arg7 harg7) K := by
  simp only [cc0__complex_gate_kernel_eq_skeleton]; unfold cc0__complex_gate_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  · iexists _; isplitr
    swap; · iexact H5
    ipureintro
    exact View.read_writes_eq_canon _ _ _ (cover_whole _)

/-! ## The proof data -/

/-- The region's proof data on core `c`: the arrays as the region finds them; after the body at point `t` each input's
    buffer at its block and each result's at the body's value of the four input blocks; the invariant the scoped
    buffers that are no staging buffer; nothing owed. The two gate windows hold their one array half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRe (iblk m c 0 t) (iblk m c 1 t) (iblk m c 2 t) (iblk m c 3 t)
    | ⟨5, _⟩ => outIm (iblk m c 0 t) (iblk m c 1 t) (iblk m c 2 t) (iblk m c 3 t)
  Φ _ := Pipeline.scopedRest spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outRe (iblk m c 0 t) (iblk m c 1 t) (iblk m c 2 t) (iblk m c 3 t) := by dsimp only [dats]
theorem after0_5 (c : Dev nD) (t : Fin cfg0.N) :
    (dats m 0 c).after 5 t = outIm (iblk m c 0 t) (iblk m c 1 t) (iblk m c 2 t) (iblk m c 3 t) := by dsimp only [dats]

/-- Each input's staging buffer holds its block at every point, fetched there or not. -/
theorem before0_0 (c : Dev nD) (t : Fin cfg0.N) (d) : (dats m 0 c).before 0 t d = iblk m c 0 t :=
  (before_in_of m (dats m 0 c) 0 rfl (fun _ => rfl) (fun _ _ _ => rfl) (A_eq m c 0) (fun t => by rw [after0_0]) t d).trans
    (by unfold Dat.fetched Dat.blockOf iblk; rw [A_eq]; rfl)
theorem before0_1 (c : Dev nD) (t : Fin cfg0.N) (d) : (dats m 0 c).before 1 t d = iblk m c 1 t :=
  (before_in_of m (dats m 0 c) 1 rfl (fun _ => rfl) (fun _ _ _ => rfl) (A_eq m c 1) (fun t => by rw [after0_1]) t d).trans
    (by unfold Dat.fetched Dat.blockOf iblk; rw [A_eq]; rfl)
theorem before0_2 (c : Dev nD) (t : Fin cfg0.N) (d) : (dats m 0 c).before 2 t d = iblk m c 2 t :=
  (before_in_of m (dats m 0 c) 2 rfl (fun _ => rfl) (fun _ _ _ => rfl) (A_eq m c 2) (fun t => by rw [after0_2]) t d).trans
    (by unfold Dat.fetched Dat.blockOf iblk; rw [A_eq]; rfl)
theorem before0_3 (c : Dev nD) (t : Fin cfg0.N) (d) : (dats m 0 c).before 3 t d = iblk m c 3 t :=
  (before_in_of m (dats m 0 c) 3 rfl (fun _ => rfl) (fun _ _ _ => rfl) (A_eq m c 3) (fun t => by rw [after0_3]) t d).trans
    (by unfold Dat.fetched Dat.blockOf iblk; rw [A_eq]; rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt among the windows -/

/-- The buffers behind the windows' arrays are the five arrays z_re, z_im, the reshaped gate and the two results. -/
theorem arrRefs_eq : Finset.univ.image (Pipeline.arrRef spec0) = ([main_arg0, main_arg1, main_v0, main_v1_0, main_v1_1] : List (Ref sig .tc)).toFinset := by
  decide

/-- The five buffers one by one. -/
theorem arrBufs_eq (c : Dev nD) : (Pipeline.arrBufs spec0 c (V m c) : sProp 𝕄)
    = iprop((((c : Thread nD τ).loc main_arg0) ↦{fullShare} V m c main_arg0) ∗ (((c : Thread nD τ).loc main_arg1) ↦{fullShare} V m c main_arg1)
        ∗ (((c : Thread nD τ).loc main_v0) ↦{fullShare} V m c main_v0) ∗ (((c : Thread nD τ).loc main_v1_0) ↦{fullShare} V m c main_v1_0)
        ∗ (((c : Thread nD τ).loc main_v1_1) ↦{fullShare} V m c main_v1_1)) :=
  bigSep_eq_bigSepL_of_eq [main_arg0, main_arg1, main_v0, main_v1_0, main_v1_1] arrRefs_eq (by decide) _

/-- The five buffers, each whole at the full share at the entry contents, make the six windows' arrays at entry: the
    reshaped gate is split into its two halves, one for each of the two windows that read it. -/
theorem hsplit (c : Dev nD) :
    (Pipeline.arrBufs spec0 c (V m c) : sProp 𝕄) ⊢ (dats m 0 c).arrays ((dats m 0 c).arrAt · 0) := by
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e4 : (cfg0.win 4).arr.view.set = Finset.univ := (arr_whole0 4).set_eq_univ
  have e5 : (cfg0.win 5).arr.view.set = Finset.univ := (arr_whole0 5).set_eq_univ
  have s0 : (dats m 0 c).share 0 = fullShare := rfl
  have s1 : (dats m 0 c).share 1 = fullShare := rfl
  have s2 : (dats m 0 c).share 2 = fullShare.left := rfl
  have s3 : (dats m 0 c).share 3 = fullShare.right := rfl
  have s4 : (dats m 0 c).share 4 = fullShare := rfl
  have s5 : (dats m 0 c).share 5 = fullShare := rfl
  rw [arrBufs_eq]
  unfold Dat.arrays
  rw [bigSep_W0]
  rw [e0, e1, e2, e4, e5, s0, s1, s2, s3, s4, s5]
  iintro ⟨H0, H1, H2, H4, H5⟩
  ihave H2' := (pointsTo_share (PosShare.mem_left_op_right fullShare)).1 $$ H2
  icases H2' with ⟨H2, H3⟩
  isplitl [H0]; · iexact H0
  isplitl [H1]; · iexact H1
  isplitl [H2]; · iexact H2
  isplitl [H3]; · iexact H3
  isplitl [H4]; · iexact H4
  iexact H5

/-! ## The run and the frame -/

set_option backward.isDefEq.respectTransparency.types false in
/-- Every weakly fair execution of the program terminates; every window's array then holds what the write-backs
    leave (an input's array its entry contents) and every other unscoped buffer what the region found. -/
theorem run_main : θ_run defs (onTc (τ := τ) (main (F := F))) (s₀ m ρ) (Pipeline.FramePost cfgs (dats m) 0 (V m)) :=
  SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.Hand

end
-- ==== Proof.Spec.lean ====
/-
  The function both programs compute, one element at a time.

  With a = z_re[p,q], b = z_im[p,q], g0 = gate[p,0,q], g1 = gate[p,1,q] and r = (g0² + g1² + ε)^(-1/2), ε the f32 word
  0x322BCC77 (the f32 nearest 1e-8), the two results are

      out_re[p,q] = a·(g0·r) − b·(g1·r)        out_im[p,q] = a·(g1·r) + b·(g0·r),

  the complex product of z with the gate direction (g0, g1) scaled to unit length. Everything is read at the ideal
  instance: a float is an extended real and each operation is exact.
-/
import Idealize.ShloMosaic.PureOps.Ideal
import Idealize.ShloMosaic.Lib.ValueIdx

noncomputable section

namespace Cert.GateSpec

open Idealize.ShloMosaic Idealize.ShloMosaic.ValueIdx

/-- The shape of z_re, z_im and of both results. -/
abbrev SZ : Shape := ⟨2, ![4096, 4096]⟩
/-- The shape of the gate: axis 1 holds the two components of the direction. -/
abbrev SG : Shape := ⟨3, ![4096, 2, 4096]⟩

/-- The reciprocal length (g0² + g1² + ε)^(-1/2) of the direction (g0, g1). -/
def invLen (g0 g1 : Ideal .f32) : Ideal .f32 :=
  FloatOps.rsqrt (FloatOps.addf (FloatOps.addf (FloatOps.mulf g0 g0) (FloatOps.mulf g1 g1)) (FloatOps.ofBits .f32 0x322BCC77#32))

/-- The real part of (a + ib)·(g0 + i g1)/|g|. -/
def reAt (a b g0 g1 : Ideal .f32) : Ideal .f32 :=
  FloatOps.subf (FloatOps.mulf a (FloatOps.mulf g0 (invLen g0 g1))) (FloatOps.mulf b (FloatOps.mulf g1 (invLen g0 g1)))

/-- The imaginary part of (a + ib)·(g0 + i g1)/|g|. -/
def imAt (a b g0 g1 : Ideal .f32) : Ideal .f32 :=
  FloatOps.addf (FloatOps.mulf a (FloatOps.mulf g1 (invLen g0 g1))) (FloatOps.mulf b (FloatOps.mulf g0 (invLen g0 g1)))

/-- The whole real-part array as a function of the three argument arrays. -/
def outRe (zr zi : SZ.Idx → Ideal .f32) (g : SG.Idx → Ideal .f32) : SZ.Idx → Ideal .f32 := fun j =>
  let p : Fin 4096 := j 0
  let q : Fin 4096 := j 1
  reAt (zr j) (zi j) (g (ix3 p (0 : Fin 2) q)) (g (ix3 p (1 : Fin 2) q))

/-- The whole imaginary-part array as a function of the three argument arrays. -/
def outIm (zr zi : SZ.Idx → Ideal .f32) (g : SG.Idx → Ideal .f32) : SZ.Idx → Ideal .f32 := fun j =>
  let p : Fin 4096 := j 0
  let q : Fin 4096 := j 1
  imAt (zr j) (zi j) (g (ix3 p (0 : Fin 2) q)) (g (ix3 p (1 : Fin 2) q))

theorem outRe_apply (zr zi : SZ.Idx → Ideal .f32) (g : SG.Idx → Ideal .f32) (p q : Fin 4096) :
    outRe zr zi g (ix2 p q) = reAt (zr (ix2 p q)) (zi (ix2 p q)) (g (ix3 p (0 : Fin 2) q)) (g (ix3 p (1 : Fin 2) q)) := rfl

theorem outIm_apply (zr zi : SZ.Idx → Ideal .f32) (g : SG.Idx → Ideal .f32) (p q : Fin 4096) :
    outIm zr zi g (ix2 p q) = imAt (zr (ix2 p q)) (zi (ix2 p q)) (g (ix3 p (0 : Fin 2) q)) (g (ix3 p (1 : Fin 2) q)) := rfl

end Cert.GateSpec

end
-- ==== Proof.Payload.lean ====
/-
  The kernel's two stored values at one element are the specification's.

  The body reads a, b, g0, g1 (one element of each of its four blocks), forms r = rsqrt(g0² + g1² + ε) and stores
  a·(g0·r) − b·(g1·r) and a·(g1·r) + b·(g0·r). The shape casts in front of the gate blocks are casts to the same
  shape, the identity; every other operation acts element by element, so at an index the two values are the
  specification's real and imaginary parts of that element.
-/
import proofs.«168136_j18167711662682_2_alg».proof.Proof.Gen.KernelIdeal.Skeleton
import proofs.«168136_j18167711662682_2_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic

/-- The first gate block after its cast to the same shape is the block. -/
theorem pay1_eq (x2 : Vec Ideal S1024x512 .f32) : k0_pay1 (F := Ideal) x2 = x2 := by
  unfold k0_pay1
  exact shapeCast_self x2 _

/-- The second gate block after its cast to the same shape is the block. -/
theorem pay2_eq (x3 : Vec Ideal S1024x512 .f32) : k0_pay2 (F := Ideal) x3 = x3 := by
  unfold k0_pay2
  exact shapeCast_self x3 _

/-- The reciprocal length at an element. -/
theorem pay3_apply (x2 x3 : Vec Ideal S1024x512 .f32) (y : S1024x512.Idx) :
    k0_pay3 (F := Ideal) x2 x3 y = Cert.GateSpec.invLen (x2 y) (x3 y) := by
  unfold k0_pay3
  rw [pay1_eq, pay2_eq]
  rfl

/-- The stored real part at an element is the specification's. -/
theorem pay_re (x0 x1 x2 x3 : Vec Ideal S1024x512 .f32) (y : S1024x512.Idx) :
    k0_pay6 (F := Ideal) x0 x1 x2 x3 y = Cert.GateSpec.reAt (x0 y) (x1 y) (x2 y) (x3 y) := by
  unfold k0_pay6 k0_pay4 k0_pay5
  rw [pay1_eq, pay2_eq]
  show FloatOps.subf (FloatOps.mulf (x0 y) (FloatOps.mulf (x2 y) (k0_pay3 (F := Ideal) x2 x3 y)))
    (FloatOps.mulf (x1 y) (FloatOps.mulf (x3 y) (k0_pay3 (F := Ideal) x2 x3 y))) = _
  rw [pay3_apply]
  rfl

/-- The stored imaginary part at an element is the specification's. -/
theorem pay_im (x0 x1 x2 x3 : Vec Ideal S1024x512 .f32) (y : S1024x512.Idx) :
    k0_pay7 (F := Ideal) x0 x1 x2 x3 y = Cert.GateSpec.imAt (x0 y) (x1 y) (x2 y) (x3 y) := by
  unfold k0_pay7 k0_pay4 k0_pay5
  rw [pay1_eq, pay2_eq]
  show FloatOps.addf (FloatOps.mulf (x0 y) (FloatOps.mulf (x3 y) (k0_pay3 (F := Ideal) x2 x3 y)))
    (FloatOps.mulf (x1 y) (FloatOps.mulf (x2 y) (k0_pay3 (F := Ideal) x2 x3 y))) = _
  rw [pay3_apply]
  rfl

end Cert.KernelIdeal.Payload

end
-- ==== Proof.KernelIdealValue.lean ====
/-
  What the kernel's two result arrays hold after the run, at the ideal instance: the specification's arrays.

  Grid point t = (i0, i1) writes back block (i0, i1) of each result. Element (j0, j1) of that block is the body's
  value of the four input blocks at (j0, j1): z_re and z_im at (1024·i0 + j0, 512·i1 + j1), and the reshaped gate
  [4096, 8192] at columns 512·i1 + j1 (first window) and 4096 + 512·i1 + j1 (second window: block column 8 + i1).
  Row p of the reshaped gate is gate[p, 0, ·] followed by gate[p, 1, ·], so these two are gate[p, 0, q] and gate[p, 1, q]
  with (p, q) the element's position in the result: the block is the specification's function read through the block.
  The 4 × 8 blocks tile the [4096, 4096] results, so each result array is the specification's, whole.
-/
import proofs.«168136_j18167711662682_2_alg».proof.Proof.KernelIdealFrame
import proofs.«168136_j18167711662682_2_alg».proof.Proof.Payload
import proofs.«168136_j18167711662682_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

theorem hz : (![0, 0] : Fin 2 → Nat) = fun _ => 0 := funext fun a => by fin_cases a <;> rfl

/-! ## The reshaped gate, as the region finds it -/

/-- The region finds the gate reshaped [4096, 2, 4096] → [4096, 8192]. -/
theorem V_main_v0 (c : Dev nD) :
    (V m c main_v0 : S4096x8192.Idx → Elt Ideal .f32)
      = shapeCast S4096x8192 (m ((c : Thread nD τ).loc main_arg2)) shapeCasts_S4096x2x4096_S4096x8192 := by
  dsimp only [V, hostOps0]; after_results; rfl

/-- Row p of the reshaped gate is gate[p, 0, ·] followed by gate[p, 1, ·]: its entry (p, 4096·g + q) is gate[p, g, q]. -/
theorem gate_at (c : Dev nD) (i : S4096x8192.Idx) (g : Fin 2) (P Q : Fin 4096)
    (h0 : (i 0).val = P.val) (h1 : (i 1).val = g.val * 4096 + Q.val) :
    V m c main_v0 i = m ((c : Thread nD τ).loc main_arg2) (ix3 P g Q) := by
  have hg := g.isLt
  rw [V_main_v0]
  exact shapeCast_apply _ shapeCasts_S4096x2x4096_S4096x8192 i (ix3 P g Q)
    (by rw [Shape.rowMajor_val_three, Shape.rowMajor_val_two]
        show (P.val * 2 + g.val) * 4096 + Q.val = (i 0).val * 8192 + (i 1).val
        omega)

/-! ## The index maps, decided over the grid -/

/-- All six windows move together: block row i0 and block column i1 — the second gate window at column 8 + i1. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2) + 8
    ∧ win0_5.index t (0 : Fin 2) = win0_4.index t (0 : Fin 2) ∧ win0_5.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every block of the results is some grid point's. -/
theorem idx_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-! ## The first result -/

/-- What grid point `t` writes back into the first result is block `t` of the specification's array. -/
theorem flushedRe_eq (c : Dev nD) (t : Fin cfg0.N) :
    (dats m 0 c).flushed 4 t = ((cfg0.win 4).blk t).view.read (Elt Ideal)
      (Cert.GateSpec.outRe (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold Hand.outRe
  rw [View.canon_unit_zero hz]
  simp only [View.ld_unit_zero (S := S1024x512) hz]
  obtain ⟨e00, e01, e10, e11, e20, e21, e30, e31, e50, e51, b0, b1⟩ := idx_facts t
  funext j
  have hj0 : (j 0).val < 1024 := (j 0).isLt
  have hj1 : (j 1).val < 512 := (j 1).isLt
  show k0_pay6 (F := Ideal) (iblk m c 0 t) (iblk m c 1 t) (iblk m c 2 t) (iblk m c 3 t) j
    = Cert.GateSpec.outRe (m ((c : Thread nD τ).loc main_arg0)) (m ((c : Thread nD τ).loc main_arg1)) (m ((c : Thread nD τ).loc main_arg2))
        (((cfg0.win 4).blk t).view.emb j)
  rw [Cert.KernelIdeal.Payload.pay_re]
  -- the four input blocks read where the result's block says
  have h0 : iblk m c 0 t j = m ((c : Thread nD τ).loc main_arg0) (((cfg0.win 4).blk t).view.emb j) := by
    show V m c main_arg0 (((cfg0.win 0).blk t).view.emb j) = _
    rw [V_main_arg0]
    refine congrArg _ (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 512 + 1 * (j 1).val = win0_4.index t (1 : Fin 2) * 512 + 1 * (j 1).val; omega
  have h1 : iblk m c 1 t j = m ((c : Thread nD τ).loc main_arg1) (((cfg0.win 4).blk t).view.emb j) := by
    show V m c main_arg1 (((cfg0.win 1).blk t).view.emb j) = _
    rw [V_main_arg1]
    refine congrArg _ (funext fun a => Fin.ext ?_)
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 512 + 1 * (j 1).val = win0_4.index t (1 : Fin 2) * 512 + 1 * (j 1).val; omega
  have h2 : iblk m c 2 t j = m ((c : Thread nD τ).loc main_arg2)
      (ix3 ((((cfg0.win 4).blk t).view.emb j) 0 : Fin 4096) (0 : Fin 2) ((((cfg0.win 4).blk t).view.emb j) 1 : Fin 4096)) := by
    show V m c main_v0 (((cfg0.win 2).blk t).view.emb j) = _
    refine gate_at m c _ (0 : Fin 2) _ _ ?_ ?_
    · show win0_2.index t (0 : Fin 2) * 1024 + 1 * (j 0).val = win0_4.index t (0 : Fin 2) * 1024 + 1 * (j 0).val; omega
    · show win0_2.index t (1 : Fin 2) * 512 + 1 * (j 1).val = 0 * 4096 + (win0_4.index t (1 : Fin 2) * 512 + 1 * (j 1).val); omega
  have h3 : iblk m c 3 t j = m ((c : Thread nD τ).loc main_arg2)
      (ix3 ((((cfg0.win 4).blk t).view.emb j) 0 : Fin 4096) (1 : Fin 2) ((((cfg0.win 4).blk t).view.emb j) 1 : Fin 4096)) := by
    show V m c main_v0 (((cfg0.win 3).blk t).view.emb j) = _
    refine gate_at m c _ (1 : Fin 2) _ _ ?_ ?_
    · show win0_3.index t (0 : Fin 2) * 1024 + 1 * (j 0).val = win0_4.index t (0 : Fin 2) * 1024 + 1 * (j 0).val; omega
    · show win0_3.index t (1 : Fin 2) * 512 + 1 * (j 1).val = 1 * 4096 + (win0_4.index t (1 : Fin 2) * 512 + 1 * (j 1).val); omega
  rw [h0, h1, h2, h3]
  rfl

/-- An index of the result is in point `t`'s block iff each coordinate is in the block's range on its axis. -/
theorem mem_blkRe (t : Fin cfg0.N) (i : S4096x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1_0).slice (win0_4.rect t)).set ↔ _
  rw [View.set_slice_whole, Rect.mem_set_unit]
  exact Iff.rfl

/-- Every index of the result is in some point's block: the blocks tile the array. -/
theorem coverRe (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  obtain ⟨e00, e01, e10, e11, e20, e21, e30, e31, e50, e51, b0, b1⟩ := idx_facts t
  have q0 : win0_4.index t (0 : Fin 2) = (i 0).val / 1024 := congrFun ht 0
  have q1 : win0_4.index t (1 : Fin 2) = (i 1).val / 512 := congrFun ht 1
  refine ⟨t, flush0_4 t, ?_⟩
  rw [mem_blkRe]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The first result array after the run is the specification's, whole. -/
theorem finalRe (c : Dev nD) : (dats m 0 c).arrAt 4 cfg0.N
    = Cert.GateSpec.outRe (m ((c : Thread nD τ).loc main_arg0)) (m ((c : Thread nD τ).loc main_arg1)) (m ((c : Thread nD τ).loc main_arg2)) :=
  (dats m 0 c).arrAt_eq_of_cover 4 _ (fun t _ => flushedRe_eq m c t) coverRe

/-! ## The second result -/

/-- What grid point `t` writes back into the second result is block `t` of the specification's array. -/
theorem flushedIm_eq (c : Dev nD) (t : Fin cfg0.N) :
    (dats m 0 c).flushed 5 t = ((cfg0.win 5).blk t).view.read (Elt Ideal)
      (Cert.GateSpec.outIm (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold Hand.outIm
  rw [View.canon_unit_zero hz]
  simp only [View.ld_unit_zero (S := S1024x512) hz]
  obtain ⟨e00, e01, e10, e11, e20, e21, e30, e31, e50, e51, b0, b1⟩ := idx_facts t
  funext j
  have hj0 : (j 0).val < 1024 := (j 0).isLt
  have hj1 : (j 1).val < 512 := (j 1).isLt
  show k0_pay7 (F := Ideal) (iblk m c 0 t) (iblk m c 1 t) (iblk m c 2 t) (iblk m c 3 t) j
    = Cert.GateSpec.outIm (m ((c : Thread nD τ).loc main_arg0)) (m ((c : Thread nD τ).loc main_arg1)) (m ((c : Thread nD τ).loc main_arg2))
        (((cfg0.win 5).blk t).view.emb j)
  rw [Cert.KernelIdeal.Payload.pay_im]
  -- the four input blocks read where the result's block says
  have h0 : iblk m c 0 t j = m ((c : Thread nD τ).loc main_arg0) (((cfg0.win 5).blk t).view.emb j) := by
    show V m c main_arg0 (((cfg0.win 0).blk t).view.emb j) = _
    rw [V_main_arg0]
    refine congrArg _ (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 512 + 1 * (j 1).val = win0_5.index t (1 : Fin 2) * 512 + 1 * (j 1).val; omega
  have h1 : iblk m c 1 t j = m ((c : Thread nD τ).loc main_arg1) (((cfg0.win 5).blk t).view.emb j) := by
    show V m c main_arg1 (((cfg0.win 1).blk t).view.emb j) = _
    rw [V_main_arg1]
    refine congrArg _ (funext fun a => Fin.ext ?_)
    match a with
    | ⟨0, _⟩ => show win0_1.index t (0 : Fin 2) * 1024 + 1 * (j 0).val = win0_5.index t (0 : Fin 2) * 1024 + 1 * (j 0).val; omega
    | ⟨1, _⟩ => show win0_1.index t (1 : Fin 2) * 512 + 1 * (j 1).val = win0_5.index t (1 : Fin 2) * 512 + 1 * (j 1).val; omega
  have h2 : iblk m c 2 t j = m ((c : Thread nD τ).loc main_arg2)
      (ix3 ((((cfg0.win 5).blk t).view.emb j) 0 : Fin 4096) (0 : Fin 2) ((((cfg0.win 5).blk t).view.emb j) 1 : Fin 4096)) := by
    show V m c main_v0 (((cfg0.win 2).blk t).view.emb j) = _
    refine gate_at m c _ (0 : Fin 2) _ _ ?_ ?_
    · show win0_2.index t (0 : Fin 2) * 1024 + 1 * (j 0).val = win0_5.index t (0 : Fin 2) * 1024 + 1 * (j 0).val; omega
    · show win0_2.index t (1 : Fin 2) * 512 + 1 * (j 1).val = 0 * 4096 + (win0_5.index t (1 : Fin 2) * 512 + 1 * (j 1).val); omega
  have h3 : iblk m c 3 t j = m ((c : Thread nD τ).loc main_arg2)
      (ix3 ((((cfg0.win 5).blk t).view.emb j) 0 : Fin 4096) (1 : Fin 2) ((((cfg0.win 5).blk t).view.emb j) 1 : Fin 4096)) := by
    show V m c main_v0 (((cfg0.win 3).blk t).view.emb j) = _
    refine gate_at m c _ (1 : Fin 2) _ _ ?_ ?_
    · show win0_3.index t (0 : Fin 2) * 1024 + 1 * (j 0).val = win0_5.index t (0 : Fin 2) * 1024 + 1 * (j 0).val; omega
    · show win0_3.index t (1 : Fin 2) * 512 + 1 * (j 1).val = 1 * 4096 + (win0_5.index t (1 : Fin 2) * 512 + 1 * (j 1).val); omega
  rw [h0, h1, h2, h3]
  rfl

/-- An index of the result is in point `t`'s block iff each coordinate is in the block's range on its axis. -/
theorem mem_blkIm (t : Fin cfg0.N) (i : S4096x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v1_1).slice (win0_5.rect t)).set ↔ _
  rw [View.set_slice_whole, Rect.mem_set_unit]
  exact Iff.rfl

/-- Every index of the result is in some point's block: the blocks tile the array. -/
theorem coverIm (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  obtain ⟨e00, e01, e10, e11, e20, e21, e30, e31, e50, e51, b0, b1⟩ := idx_facts t
  have q0 : win0_4.index t (0 : Fin 2) = (i 0).val / 1024 := congrFun ht 0
  have q1 : win0_4.index t (1 : Fin 2) = (i 1).val / 512 := congrFun ht 1
  refine ⟨t, flush0_5 t, ?_⟩
  rw [mem_blkIm]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- The second result array after the run is the specification's, whole. -/
theorem finalIm (c : Dev nD) : (dats m 0 c).arrAt 5 cfg0.N
    = Cert.GateSpec.outIm (m ((c : Thread nD τ).loc main_arg0)) (m ((c : Thread nD τ).loc main_arg1)) (m ((c : Thread nD τ).loc main_arg2)) :=
  (dats m 0 c).arrAt_eq_of_cover 5 _ (fun t _ => flushedIm_eq m c t) coverIm

/-! ## The run, read -/

/-- Every weakly fair execution of the kernel's program terminates with the two results at the specification's
    arrays of the arguments, and the arguments unchanged. -/
theorem run : θ_run defs (onTc (τ := τ) (main (F := Ideal))) ⟨m, fun _ => 0, ρ⟩ fun r => ∀ c : Dev nD,
      r.2.mem ((c.tc : Thread nD τ).loc main_v1_0) = Cert.GateSpec.outRe (m ((c : Thread nD τ).loc main_arg0)) (m ((c : Thread nD τ).loc main_arg1)) (m ((c : Thread nD τ).loc main_arg2))
      ∧ r.2.mem ((c.tc : Thread nD τ).loc main_v1_1) = Cert.GateSpec.outIm (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 4).trans (finalRe m c), ((h c).1 5).trans (finalIm m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.HandValue

end
-- ==== Proof.RefValue.lean ====
/-
  The reference program, read one element at a time, computes the specification.

  At the index (p, q) the reference forms s = sqrt(g0² + g1² + ε) with g0 = gate[p,0,q], g1 = gate[p,1,q] and returns
  a·(g0/s) − b·(g1/s) and a·(g1/s) + b·(g0/s). For real g0, g1 the sum x = g0² + g1² + ε is a positive real (ε is a
  positive real), so sqrt x is a nonzero real and g/sqrt x = g·(sqrt x)⁻¹ = g·rsqrt x: the quotient by the length is
  the product with the reciprocal length, which is what the specification states. The law fails at an infinite gate
  entry (there x = ⊤, sqrt x = ⊤ and ⊤/⊤ is not ⊤·0), hence the hypothesis that every gate entry is a real.
-/
import proofs.«168136_j18167711662682_2_alg».proof.Proof.Gen.ReferenceIdeal.Read
import proofs.«168136_j18167711662682_2_alg».proof.Proof.Spec
import Idealize.ShloMosaic.PureOps.Ideal
import Idealize.ShloMosaic.Lib.ValueIdx

noncomputable section

namespace Cert.ReferenceIdeal.RefValue

open Cert.ReferenceIdeal Idealize.ShloMosaic Idealize.ShloMosaic.ValueIdx

/-! ## The constant ε -/

/-- The word 0x322BCC77 denotes the positive real 11258999 · 2⁻⁵⁰. -/
theorem eps_eq : Ideal.ofBits .f32 0x322BCC77#32 = (((11258999 : ℝ) * (2 : ℝ) ^ (-50 : ℤ) : ℝ) : EReal) := by
  simp [Ideal.ofBits, Ideal.ieee, -EReal.coe_mul]

/-- ε denotes a positive real. -/
theorem eps_pos : ∃ e : ℝ, 0 < e ∧ Ideal.ofBits .f32 0x322BCC77#32 = ((e : ℝ) : EReal) :=
  ⟨(11258999 : ℝ) * (2 : ℝ) ^ (-50 : ℤ), by positivity, eps_eq⟩

/-! ## The one law: dividing by the length is multiplying by the reciprocal length -/

/-- For a positive real x, g / sqrt x = g · rsqrt x, at every extended real g. -/
theorem div_sqrt_eq_mul_rsqrt (g : EReal) {x : ℝ} (hx : 0 < x) :
    Ideal.div g (Ideal.sqrt ((x : ℝ) : EReal)) = g * Ideal.rsqrt ((x : ℝ) : EReal) := by
  have hs : Real.sqrt x ≠ 0 := (Real.sqrt_pos.2 hx).ne'
  rw [Ideal.sqrt_coe, if_neg (not_lt.2 hx.le), Ideal.rsqrt_coe, if_neg (not_lt.2 hx.le), if_neg hx.ne',
    Ideal.div_coe hs, one_div]

/-- The squared length plus ε of a real direction is a positive real. -/
theorem sumsq_eq (g0 g1 : ℝ) : ∃ x : ℝ, 0 < x ∧
    FloatOps.addf (F := Ideal) (φ := .f32) (FloatOps.addf (FloatOps.mulf ((g0 : ℝ) : EReal) ((g0 : ℝ) : EReal))
      (FloatOps.mulf ((g1 : ℝ) : EReal) ((g1 : ℝ) : EReal))) (FloatOps.ofBits .f32 0x322BCC77#32) = ((x : ℝ) : EReal) := by
  obtain ⟨e, he, hε⟩ := eps_pos
  refine ⟨g0 * g0 + g1 * g1 + e, by nlinarith [mul_self_nonneg g0, mul_self_nonneg g1], ?_⟩
  rw [Ideal.ofBits_def, hε, Ideal.mulf_def, Ideal.mulf_def, Ideal.addf_def, Ideal.addf_def, ← EReal.coe_mul, ← EReal.coe_mul,
    ← EReal.coe_add, ← EReal.coe_add]

/-- The quotient of an extended real by the length of a real direction is its product with the reciprocal length. -/
theorem hostDivf_sqrt_eq (g : EReal) (g0 g1 : ℝ) :
    FloatOps.hostDivf (F := Ideal) (φ := .f32) g (FloatOps.hostUnary .sqrt (FloatOps.addf (FloatOps.addf
      (FloatOps.mulf ((g0 : ℝ) : EReal) ((g0 : ℝ) : EReal)) (FloatOps.mulf ((g1 : ℝ) : EReal) ((g1 : ℝ) : EReal)))
      (FloatOps.ofBits .f32 0x322BCC77#32)))
    = FloatOps.mulf g (Cert.GateSpec.invLen ((g0 : ℝ) : EReal) ((g1 : ℝ) : EReal)) := by
  obtain ⟨x, hx, e⟩ := sumsq_eq g0 g1
  unfold Cert.GateSpec.invLen
  rw [e, Ideal.hostDivf_def, Ideal.hostUnary_sqrt_def, Ideal.rsqrt_def, Ideal.mulf_def]
  exact div_sqrt_eq_mul_rsqrt g hx

/-- The reference's real part at one element is the specification's. -/
theorem re_scalar (a b : EReal) (g0 g1 : ℝ) :
    FloatOps.subf (F := Ideal) (φ := .f32)
      (FloatOps.mulf a (FloatOps.hostDivf ((g0 : ℝ) : EReal) (FloatOps.hostUnary .sqrt (FloatOps.addf (FloatOps.addf
        (FloatOps.mulf ((g0 : ℝ) : EReal) ((g0 : ℝ) : EReal)) (FloatOps.mulf ((g1 : ℝ) : EReal) ((g1 : ℝ) : EReal)))
        (FloatOps.ofBits .f32 0x322BCC77#32)))))
      (FloatOps.mulf b (FloatOps.hostDivf ((g1 : ℝ) : EReal) (FloatOps.hostUnary .sqrt (FloatOps.addf (FloatOps.addf
        (FloatOps.mulf ((g0 : ℝ) : EReal) ((g0 : ℝ) : EReal)) (FloatOps.mulf ((g1 : ℝ) : EReal) ((g1 : ℝ) : EReal)))
        (FloatOps.ofBits .f32 0x322BCC77#32)))))
    = Cert.GateSpec.reAt a b ((g0 : ℝ) : EReal) ((g1 : ℝ) : EReal) := by
  rw [hostDivf_sqrt_eq, hostDivf_sqrt_eq]; rfl

/-- The reference's imaginary part at one element is the specification's. -/
theorem im_scalar (a b : EReal) (g0 g1 : ℝ) :
    FloatOps.addf (F := Ideal) (φ := .f32)
      (FloatOps.mulf a (FloatOps.hostDivf ((g1 : ℝ) : EReal) (FloatOps.hostUnary .sqrt (FloatOps.addf (FloatOps.addf
        (FloatOps.mulf ((g0 : ℝ) : EReal) ((g0 : ℝ) : EReal)) (FloatOps.mulf ((g1 : ℝ) : EReal) ((g1 : ℝ) : EReal)))
        (FloatOps.ofBits .f32 0x322BCC77#32)))))
      (FloatOps.mulf b (FloatOps.hostDivf ((g0 : ℝ) : EReal) (FloatOps.hostUnary .sqrt (FloatOps.addf (FloatOps.addf
        (FloatOps.mulf ((g0 : ℝ) : EReal) ((g0 : ℝ) : EReal)) (FloatOps.mulf ((g1 : ℝ) : EReal) ((g1 : ℝ) : EReal)))
        (FloatOps.ofBits .f32 0x322BCC77#32)))))
    = Cert.GateSpec.imAt a b ((g0 : ℝ) : EReal) ((g1 : ℝ) : EReal) := by
  rw [hostDivf_sqrt_eq, hostDivf_sqrt_eq]; rfl

/-! ## Where the reference reads the gate -/

/-- The first slice of the gate, reshaped to [4096, 4096], reads gate[p, 0, q] at (p, q). -/
theorem idx_g0 (p q : Fin 4096) : Read.idx_main_v0 (Read.idx_main_v1 (ix2 p q)) = ix3 p (0 : Fin 2) q := by
  have hp := p.isLt
  have hq := q.isLt
  funext a
  match a with
  | ⟨0, _⟩ => exact Fin.ext (by show (p.val * 4096 + q.val) / 4096 = p.val; omega)
  | ⟨1, _⟩ => rfl
  | ⟨2, _⟩ => exact Fin.ext (by show (p.val * 4096 + q.val) % 4096 = q.val; omega)

/-- The second slice of the gate, reshaped to [4096, 4096], reads gate[p, 1, q] at (p, q). -/
theorem idx_g1 (p q : Fin 4096) : Read.idx_main_v2 (Read.idx_main_v3 (ix2 p q)) = ix3 p (1 : Fin 2) q := by
  have hp := p.isLt
  have hq := q.isLt
  funext a
  match a with
  | ⟨0, _⟩ => exact Fin.ext (by show (p.val * 4096 + q.val) / 4096 = p.val; omega)
  | ⟨1, _⟩ => rfl
  | ⟨2, _⟩ => exact Fin.ext (by show (p.val * 4096 + q.val) % 4096 = q.val; omega)

/-! ## The reference's two results are the specification's -/

/-- The reference's first result is the real part, when every gate entry is a real. -/
theorem ref_re (x0 x1 : (⟨S4096x4096, .f32⟩ : BufTy).Contents (Elt Ideal)) (x2 : (⟨S4096x2x4096, .f32⟩ : BufTy).Contents (Elt Ideal))
    (hg : ∀ i, ∃ r : ℝ, x2 i = ((r : ℝ) : EReal)) :
    Cert.ReferenceIdeal.Read.val_main_v14 (F := Ideal) x0 x1 x2 = Cert.GateSpec.outRe x0 x1 x2 := by
  funext j
  obtain ⟨p, q, rfl⟩ : ∃ (p q : Fin 4096), j = ValueIdx.ix2 p q := ⟨j 0, j 1, ValueIdx.eq_ix2 j⟩
  rw [Read.val_main_v14_apply, Read.val_main_v12_apply, Read.val_main_v13_apply, Read.val_main_v10_apply,
    Read.val_main_v11_apply, Read.val_main_v9_apply, Read.val_main_v8_apply, Read.val_main_v7_apply,
    Read.val_main_cst_apply, Read.val_main_v6_apply, Read.val_main_v4_apply, Read.val_main_v5_apply,
    Read.val_main_v1_apply, Read.val_main_v3_apply, Read.val_main_v0_apply, Read.val_main_v2_apply,
    idx_g0 p q, idx_g1 p q, Cert.GateSpec.outRe_apply]
  obtain ⟨g0, h0⟩ := hg (ix3 p (0 : Fin 2) q)
  obtain ⟨g1, h1⟩ := hg (ix3 p (1 : Fin 2) q)
  rw [h0, h1]
  exact re_scalar _ _ g0 g1

/-- The reference's second result is the imaginary part, when every gate entry is a real. -/
theorem ref_im (x0 x1 : (⟨S4096x4096, .f32⟩ : BufTy).Contents (Elt Ideal)) (x2 : (⟨S4096x2x4096, .f32⟩ : BufTy).Contents (Elt Ideal))
    (hg : ∀ i, ∃ r : ℝ, x2 i = ((r : ℝ) : EReal)) :
    Cert.ReferenceIdeal.Read.val_main_v17 (F := Ideal) x0 x1 x2 = Cert.GateSpec.outIm x0 x1 x2 := by
  funext j
  obtain ⟨p, q, rfl⟩ : ∃ (p q : Fin 4096), j = ValueIdx.ix2 p q := ⟨j 0, j 1, ValueIdx.eq_ix2 j⟩
  rw [Read.val_main_v17_apply, Read.val_main_v15_apply, Read.val_main_v16_apply, Read.val_main_v10_apply,
    Read.val_main_v11_apply, Read.val_main_v9_apply, Read.val_main_v8_apply, Read.val_main_v7_apply,
    Read.val_main_cst_apply, Read.val_main_v6_apply, Read.val_main_v4_apply, Read.val_main_v5_apply,
    Read.val_main_v1_apply, Read.val_main_v3_apply, Read.val_main_v0_apply, Read.val_main_v2_apply,
    idx_g0 p q, idx_g1 p q, Cert.GateSpec.outIm_apply]
  obtain ⟨g0, h0⟩ := hg (ix3 p (0 : Fin 2) q)
  obtain ⟨g1, h1⟩ := hg (ix3 p (1 : Fin 2) q)
  rw [h0, h1]
  exact im_scalar _ _ g0 g1

end Cert.ReferenceIdeal.RefValue

end
-- ==== Proof.Finite.lean ====
/-
  The precondition read back: every entry of the gate is a real.

  The printed predicate is the conjunction of three tests, one per argument array, each "every entry x has |x| < +∞"
  (a comparison of |x| with the word 0x7F800000, reduced by "and" over all axes). From its value 1 the third conjunct
  gives, at each index of the gate, |x| < ⊤ on the extended reals, where |x| = max x (−x); that excludes both
  infinities, so x is a real.
-/
import proofs.«168136_j18167711662682_2_alg».proof.Pre_finite_inputs
import proofs.«168136_j18167711662682_2_alg».proof.Proof.Gen.Pre_finite_inputs
import Idealize.ShloMosaic.Lib.ReduceAll
import Idealize.ShloMosaic.Lib.ValueIdx
import Idealize.ShloMosaic.PureOps.Ideal

noncomputable section

namespace Cert.GateFinite

open Idealize.ShloMosaic

/-- The scalar shape has one index. -/
instance : Subsingleton Cert.Pre_finite_inputs.S_.Idx := ⟨fun a b => funext fun d => d.elim0⟩

/-- The word 0x7F800000 denotes +∞. -/
theorem top_word : Ideal.ofBits .f32 0x7F800000#32 = ⊤ := by
  simp [Ideal.ofBits, Ideal.ieee]

/-- An extended real whose absolute value max x (−x) is below +∞ is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- A one-bit word made from a Boolean is 1 exactly when the Boolean is true. -/
theorem ofBool_eq_one {b : Bool} : BitVec.ofBool b = 1#1 ↔ b = true := by cases b <;> decide

/-- Under the precondition every entry of the gate is a real. -/
theorem gate_finite [Cert.Pre_finite_inputs.Facts]
    (x0 x1 : FVec Ideal Cert.Pre_finite_inputs.S4096x4096 .f32) (x2 : FVec Ideal Cert.Pre_finite_inputs.S4096x2x4096 .f32)
    (h : Cert.Pre_finite_inputs.fn (F := Ideal) x0 x1 x2 = fun _ => 1#1) :
    ∀ i, ∃ r : ℝ, x2 i = ((r : ℝ) : EReal) := by
  intro i
  have h0 := congrFun h ValueIdx.ix0
  dsimp only [Cert.Pre_finite_inputs.fn] at h0
  -- the third conjunct is the test on the gate
  obtain ⟨_, h12⟩ := IntOp.andi_eq_one.1 h0
  -- the reduction by "and" over all axes is 1, so the comparison is 1 at every index
  have hi := Host.reduce_andi_all _ _ _ _ _ h12 i
  -- at the index i the comparison is |x2 i| < the word 0x7F800000
  have hb : BitVec.ofBool (decide (max (x2 i) (-(x2 i)) < Ideal.ofBits .f32 0x7F800000#32)) = 1#1 := hi
  have hlt : max (x2 i) (-(x2 i)) < Ideal.ofBits .f32 0x7F800000#32 := of_decide_eq_true (ofBool_eq_one.1 hb)
  rw [top_word] at hlt
  exact real_of_abs_lt_top _ hlt

end Cert.GateFinite

end
-- ==== Proof.lean ====
/-
  The gate-rotation kernel against its reference: the five claims.

  Both programs take z_re, z_im [4096, 4096] and gate [4096, 2, 4096] and return the real and imaginary parts of
  (z_re + i·z_im)·(g0 + i·g1)/|g|, where (g0, g1) = (gate[·,0,·], gate[·,1,·]) and |g|² = g0² + g1² + ε. The kernel
  multiplies by the reciprocal length rsqrt(g0² + g1² + ε); the reference divides by the length sqrt(g0² + g1² + ε).
  At the ideal instance the two agree wherever the gate's entries are reals, which the precondition gives; at an
  infinite gate entry they would not, so the precondition is used, and only for the gate.

  * The frames of the kernel's program (read at the word level and at the ideal instance) are the run of its one
    pipelined region; two of its windows read one array, which the region deals between them (Proof/KernelFrame.lean,
    Proof/KernelIdealFrame.lean over Proof/LibSharedFrame.lean). The reference's frame is its run.
  * The idealization rewrote nothing, so there is nothing to preserve.
  * Values: the kernel's result arrays are the specification's (Proof/KernelIdealValue.lean, the body's arithmetic
    in Proof/Payload.lean), and so are the reference's when the gate is finite (Proof/RefValue.lean, the finiteness
    from the precondition in Proof/Finite.lean); the specification is Proof/Spec.lean.
-/
import proofs.«168136_j18167711662682_2_alg».proof.Defs
import proofs.«168136_j18167711662682_2_alg».proof.Proof.Gen.Kernel
import proofs.«168136_j18167711662682_2_alg».proof.Proof.Gen.KernelIdeal
import proofs.«168136_j18167711662682_2_alg».proof.Proof.Gen.ReferenceIdeal
import proofs.«168136_j18167711662682_2_alg».proof.Proof.Gen.Pre_finite_inputs
import proofs.«168136_j18167711662682_2_alg».proof.Proof.Gen.ReferenceIdeal.Run
import proofs.«168136_j18167711662682_2_alg».proof.Proof.Gen.ReferenceIdeal.Read
import proofs.«168136_j18167711662682_2_alg».proof.Proof.KernelFrame
import proofs.«168136_j18167711662682_2_alg».proof.Proof.KernelIdealFrame
import proofs.«168136_j18167711662682_2_alg».proof.Proof.KernelIdealValue
import proofs.«168136_j18167711662682_2_alg».proof.Proof.RefValue
import proofs.«168136_j18167711662682_2_alg».proof.Proof.Finite
import Idealize.ShloMosaic.Adequacy
import Idealize.ShloMosaic.Init

noncomputable section

namespace Cert.Proof

open Idealize.ShloMosaic Idealize.ShloMosaic.TcCoe Idealize.SL.Sem

/-- The kernel's program, at the word level, runs and leaves its arguments unchanged. -/
theorem frame_kernel : Cert.frame_Kernel := fun m ρ _ => Cert.Kernel.Hand.frame m ρ

/-- The same at the ideal instance. -/
theorem frame_kernelIdeal : Cert.frame_KernelIdeal := fun m ρ _ => Cert.KernelIdeal.Hand.frame m ρ

/-- The reference runs and leaves its arguments unchanged: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, with every input finite, both programs end with the specification's two
    arrays: the kernel's run gives them outright, the reference's because the gate's entries are reals. -/
theorem algebraic : Cert.algebraic_KernelIdeal_ReferenceIdeal := by
  intro m ρ m' ρ' hpre hagree
  refine ⟨fun c => Cert.GateSpec.outRe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.GateSpec.outIm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HandValue.run m ρ, ?_⟩
  refine (θ_run Cert.ReferenceIdeal.defs _ _).mono (fun _ h c => ?_) (Cert.ReferenceIdeal.Value.run (F := Ideal) m' ρ')
  have hfin := Cert.GateFinite.gate_finite _ _ _ (hpre c)
  refine ⟨(h c).1.trans ?_, (h c).2.1.trans ?_, (h c).2.2⟩
  · refine (Cert.ReferenceIdeal.Read.val_main_v14_eq (F := Ideal) _ _ _).trans ?_
    rw [(hagree c).1, (hagree c).2.1, (hagree c).2.2]
    exact Cert.ReferenceIdeal.RefValue.ref_re _ _ _ hfin
  · refine (Cert.ReferenceIdeal.Read.val_main_v17_eq (F := Ideal) _ _ _).trans ?_
    rw [(hagree c).1, (hagree c).2.1, (hagree c).2.2]
    exact Cert.ReferenceIdeal.RefValue.ref_im _ _ _ hfin

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
